-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x3x448x448 : Shape := ⟨5, ![1, 32, 3, 448, 448]⟩
abbrev S768x1536 : Shape := ⟨2, ![768, 1536]⟩
abbrev S768 : Shape := ⟨1, ![768]⟩
abbrev S78 : Shape := ⟨1, ![78]⟩
abbrev S_ : Shape := ⟨0, ![]⟩

class Facts : Prop where
  bcast_S_S1x32x3x448x448 : S_.BroadcastsInDim S1x32x3x448x448 (![] : Fin 0 → Fin S1x32x3x448x448.rank)
  reducesTo_S1x32x3x448x448_S_d0_1_2_3_4 : S1x32x3x448x448.ReducesTo [0, 1, 2, 3, 4] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S1x32x3x448x448 .f32) (main_arg1 : FVec F S768x1536 .f32) (main_arg2 : FVec F S768 .f32) (main_arg3 : IVec S78 32) : IVec S_ 1 :=
  let main_v0 : FVec F S1x32x3x448x448 .f32 := Host.absf main_arg0
  let main_cst : FVec F S_ .f32 := constant S_ .f32 0x7F800000#32
  let main_v1 : FVec F S1x32x3x448x448 .f32 := broadcastInDim S1x32x3x448x448 ![] bcast_S_S1x32x3x448x448 main_cst
  let main_v2 : IVec S1x32x3x448x448 1 := cmpf .olt main_v0 main_v1
  let main_c : IVec S_ 1 := constantI S_ 1 1#1
  let main_v3 : IVec S_ 1 := (fun x v => Host.reduce IntOp.andi x v reducesTo_S1x32x3x448x448_S_d0_1_2_3_4 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S1x32x3x448x448 : Shape := ⟨5, ![1, 32, 3, 448, 448]⟩
abbrev S768x1536 : Shape := ⟨2, ![768, 1536]⟩
abbrev S768 : Shape := ⟨1, ![768]⟩
abbrev S78 : Shape := ⟨1, ![78]⟩
abbrev S32x3x448x448 : Shape := ⟨4, ![32, 3, 448, 448]⟩
abbrev S3x32x448x448 : Shape := ⟨4, ![3, 32, 448, 448]⟩
abbrev S3x16x2x28x16x28x16 : Shape := ⟨7, ![3, 16, 2, 28, 16, 28, 16]⟩
abbrev S16x28x28x3x2x16x16 : Shape := ⟨7, ![16, 28, 28, 3, 2, 16, 16]⟩
abbrev S12544x1536 : Shape := ⟨2, ![12544, 1536]⟩
abbrev S1536x768 : Shape := ⟨2, ![1536, 768]⟩
abbrev S1x768 : Shape := ⟨2, ![1, 768]⟩
abbrev S12544x768 : Shape := ⟨2, ![12544, 768]⟩
abbrev S1792x1536 : Shape := ⟨2, ![1792, 1536]⟩
abbrev S1792x768 : Shape := ⟨2, ![1792, 768]⟩
abbrev S16x784x768 : Shape := ⟨3, ![16, 784, 768]⟩
abbrev S_ : Shape := ⟨0, ![]⟩
abbrev S78x1 : Shape := ⟨2, ![78, 1]⟩
abbrev S16x78x768 : Shape := ⟨3, ![16, 78, 768]⟩
abbrev S1248x768 : Shape := ⟨2, ![1248, 768]⟩
abbrev S784x16 : Shape := ⟨2, ![784, 16]⟩
abbrev S78x16 : Shape := ⟨2, ![78, 16]⟩

abbrev nBuf : Space → Nat
  | .hbm => 38
  | .vmem => 6
  | .smem => 0
  | _ => 0

abbrev bufTy : (tb : Table) → Fin (tcTables nBuf tb) → BufTy
  | .hbm, ⟨0, _⟩ => ⟨S1x32x3x448x448, .f32⟩
  | .hbm, ⟨1, _⟩ => ⟨S768x1536, .f32⟩
  | .hbm, ⟨2, _⟩ => ⟨S768, .f32⟩
  | .hbm, ⟨3, _⟩ => ⟨S78, .i32⟩
  | .hbm, ⟨4, _⟩ => ⟨S32x3x448x448, .f32⟩
  | .hbm, ⟨5, _⟩ => ⟨S3x32x448x448, .f32⟩
  | .hbm, ⟨6, _⟩ => ⟨S3x16x2x28x16x28x16, .f32⟩
  | .hbm, ⟨7, _⟩ => ⟨S16x28x28x3x2x16x16, .f32⟩
  | .hbm, ⟨8, _⟩ => ⟨S12544x1536, .f32⟩
  | .hbm, ⟨9, _⟩ => ⟨S12544x1536, .bf16⟩
  | .hbm, ⟨10, _⟩ => ⟨S1536x768, .f32⟩
  | .hbm, ⟨11, _⟩ => ⟨S1536x768, .bf16⟩
  | .hbm, ⟨12, _⟩ => ⟨S1x768, .f32⟩
  | .hbm, ⟨13, _⟩ => ⟨S12544x768, .f32⟩
  | .hbm, ⟨14, _⟩ => ⟨S16x784x768, .f32⟩
  | .hbm, ⟨15, _⟩ => ⟨S_, .i32⟩
  | .hbm, ⟨16, _⟩ => ⟨S78, .i32⟩
  | .hbm, ⟨17, _⟩ => ⟨S78, .i1⟩
  | .hbm, ⟨18, _⟩ => ⟨S_, .i32⟩
  | .hbm, ⟨19, _⟩ => ⟨S78, .i32⟩
  | .hbm, ⟨20, _⟩ => ⟨S78, .i32⟩
  | .hbm, ⟨21, _⟩ => ⟨S78, .i32⟩
  | .hbm, ⟨22, _⟩ => ⟨S78x1, .i32⟩
  | .hbm, ⟨23, _⟩ => ⟨S16x78x768, .f32⟩
  | .hbm, ⟨24, _⟩ => ⟨S1248x768, .f32⟩
  | .hbm, ⟨25, _⟩ => ⟨S_, .i1⟩
  | .hbm, ⟨26, _⟩ => ⟨S784x16, .i1⟩
  | .hbm, ⟨27, _⟩ => ⟨S_, .i32⟩
  | .hbm, ⟨28, _⟩ => ⟨S78, .i32⟩
  | .hbm, ⟨29, _⟩ => ⟨S78, .i1⟩
  | .hbm, ⟨30, _⟩ => ⟨S_, .i32⟩
  | .hbm, ⟨31, _⟩ => ⟨S78, .i32⟩
  | .hbm, ⟨32, _⟩ => ⟨S78, .i32⟩
  | .hbm, ⟨33, _⟩ => ⟨S78, .i32⟩
  | .hbm, ⟨34, _⟩ => ⟨S78x1, .i32⟩
  | .hbm, ⟨35, _⟩ => ⟨S_, .i1⟩
  | .hbm, ⟨36, _⟩ => ⟨S78x16, .i1⟩
  | .hbm, ⟨37, _⟩ => ⟨S784x16, .i1⟩
  | .local _ .vmem, ⟨0, _⟩ => ⟨S1792x1536, .bf16⟩
  | .local _ .vmem, ⟨1, _⟩ => ⟨S1792x1536, .bf16⟩
  | .local _ .vmem, ⟨2, _⟩ => ⟨S1536x768, .bf16⟩
  | .local _ .vmem, ⟨3, _⟩ => ⟨S1x768, .f32⟩
  | .local _ .vmem, ⟨4, _⟩ => ⟨S1792x768, .f32⟩
  | .local _ .vmem, ⟨5, _⟩ => ⟨S1792x768, .f32⟩
  | _, _ => ⟨S1x32x3x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x32x3x448x448_S32x3x448x448 : S1x32x3x448x448.ShapeCasts S32x3x448x448
  transposes_S32x3x448x448_S3x32x448x448_1_0_2_3 : S32x3x448x448.Transposes [1, 0, 2, 3] S3x32x448x448
  shapeCasts_S3x32x448x448_S3x16x2x28x16x28x16 : S3x32x448x448.ShapeCasts S3x16x2x28x16x28x16
  transposes_S3x16x2x28x16x28x16_S16x28x28x3x2x16x16_1_3_5_0_2_4_6 : S3x16x2x28x16x28x16.Transposes [1, 3, 5, 0, 2, 4, 6] S16x28x28x3x2x16x16
  shapeCasts_S16x28x28x3x2x16x16_S12544x1536 : S16x28x28x3x2x16x16.ShapeCasts S12544x1536
  bitsLt_bf16_f32 : FTy.bits .bf16 < FTy.bits .f32
  transposes_S768x1536_S1536x768_1_0 : S768x1536.Transposes [1, 0] S1536x768
  shapeCasts_S768_S1x768 : S768.ShapeCasts S1x768
  inb_S1792x1536_S1792x1536_0_0 : ∀ a, (![0, 0] : Fin 2 → Nat) a + S1792x1536.size a ≤ S1792x1536.size a
  h_S1792x1536 : 0 < S1792x1536.numel
  shapeCasts_S1792x1536_S1792x1536 : S1792x1536.ShapeCasts S1792x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1792x768 : S1x768.Broadcasts S1792x768
  inb_S1792x768_S1792x768_0_0 : ∀ a, (![0, 0] : Fin 2 → Nat) a + S1792x768.size a ≤ S1792x768.size a
  h_S1792x768 : 0 < S1792x768.numel
  shapeCasts_S12544x768_S16x784x768 : S12544x768.ShapeCasts S16x784x768
  bcast_S_S78 : S_.BroadcastsInDim S78 (![] : Fin 0 → Fin S78.rank)
  bcast_S78_S78x1_0 : S78.BroadcastsInDim S78x1 (![0] : Fin 1 → Fin S78x1.rank)
  shapeCasts_S16x78x768_S1248x768 : S16x78x768.ShapeCasts S1248x768
  bcast_S_S784x16 : S_.BroadcastsInDim S784x16 (![] : Fin 0 → Fin S784x16.rank)
  bcast_S_S78x16 : S_.BroadcastsInDim S78x16 (![] : Fin 0 → Fin S78x16.rank)
  dot_S1792x1536_S1536x768_S1792x768_1_0_0_1_n_n_wf : DotDims.WF S1792x1536 S1536x768 S1792x768 [1] [0] [0] [1] [] []
  gather_S16x784x768_S78x1_S16x78x768_02_1_n_n_1_1_161768_wf : GatherDims.WF S16x784x768 S78x1 S16x78x768 [0, 2] [1] [] [1] [] 1 ![16, 1, 768]
  scatter_S784x16_S78x1_S78x16_1_0_0_1_wf : ScatterDims.WF S784x16 S78x1 S78x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x1536.size a ≤ S12544x1536.size a
  hwx0_0 : ∀ i : grid0.Coords, EltTy.bits .bf16 = 32 ∨ (Rect.block (s := S12544x1536) S1792x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x768.size a ≤ S1536x768.size a
  hwx0_1 : ∀ i : grid0.Coords, EltTy.bits .bf16 = 32 ∨ (Rect.block (s := S1536x768) S1536x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1792x768.size a ≤ S12544x768.size a
  hwx0_3 : ∀ i : grid0.Coords, EltTy.bits .f32 = 32 ∨ (Rect.block (s := S12544x768) S1792x768.size (cc0_transform_3 i) (hinb0_3 i)).WholeWords (EltTy.packing .f32)

variable [Facts₀]

def dot_S1792x1536_S1536x768_S1792x768_1_0_0_1_n_n : DotDims S1792x1536 S1536x768 S1792x768 where
  lhsContracting := [1]
  rhsContracting := [0]
  lhsNonContracting := [0]
  rhsNonContracting := [1]
  lhsBatch := []
  rhsBatch := []
  wf := dot_S1792x1536_S1536x768_S1792x768_1_0_0_1_n_n_wf
def gather_S16x784x768_S78x1_S16x78x768_02_1_n_n_1_1_161768 : GatherDims S16x784x768 S78x1 S16x78x768 where
  offsetDims := [0, 2]
  collapsedSliceDims := [1]
  operandBatchingDims := []
  startIndicesBatchingDims := []
  startIndexMap := [1]
  indexVectorDim := 1
  sliceSizes := ![16, 1, 768]
  wf := gather_S16x784x768_S78x1_S16x78x768_02_1_n_n_1_1_161768_wf
def scatter_S784x16_S78x1_S78x16_1_0_0_1 : ScatterDims S784x16 S78x1 S78x16 where
  updateWindowDims := [1]
  insertedWindowDims := [0]
  scatterDimsToOperandDims := [0]
  indexVectorDim := 1
  wf := scatter_S784x16_S78x1_S78x16_1_0_0_1_wf

abbrev win0_0 : Pipeline.Window sig grid0 :=
  Pipeline.Window.ofSpec (Memref.whole main_v5) S1792x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1536x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1792x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x32x3x448x448 : Shape := ⟨5, ![1, 32, 3, 448, 448]⟩
abbrev S768x1536 : Shape := ⟨2, ![768, 1536]⟩
abbrev S768 : Shape := ⟨1, ![768]⟩
abbrev S78 : Shape := ⟨1, ![78]⟩
abbrev S32x3x448x448 : Shape := ⟨4, ![32, 3, 448, 448]⟩
abbrev S3x32x448x448 : Shape := ⟨4, ![3, 32, 448, 448]⟩
abbrev S3x16x2x28x16x28x16 : Shape := ⟨7, ![3, 16, 2, 28, 16, 28, 16]⟩
abbrev S16x28x28x3x2x16x16 : Shape := ⟨7, ![16, 28, 28, 3, 2, 16, 16]⟩
abbrev S12544x1536 : Shape := ⟨2, ![12544, 1536]⟩
abbrev S1536x768 : Shape := ⟨2, ![1536, 768]⟩
abbrev S12544x768 : Shape := ⟨2, ![12544, 768]⟩
abbrev S1x768 : Shape := ⟨2, ![1, 768]⟩
abbrev S16x784x768 : Shape := ⟨3, ![16, 784, 768]⟩
abbrev S_ : Shape := ⟨0, ![]⟩
abbrev S78x1 : Shape := ⟨2, ![78, 1]⟩
abbrev S16x78x768 : Shape := ⟨3, ![16, 78, 768]⟩
abbrev S1248x768 : Shape := ⟨2, ![1248, 768]⟩
abbrev S784x16 : Shape := ⟨2, ![784, 16]⟩
abbrev S78x16 : Shape := ⟨2, ![78, 16]⟩

abbrev nBuf : Space → Nat
  | .hbm => 38
  | .vmem => 0
  | .smem => 0
  | _ => 0

abbrev bufTy : (tb : Table) → Fin (tcTables nBuf tb) → BufTy
  | .hbm, ⟨0, _⟩ => ⟨S1x32x3x448x448, .f32⟩
  | .hbm, ⟨1, _⟩ => ⟨S768x1536, .f32⟩
  | .hbm, ⟨2, _⟩ => ⟨S768, .f32⟩
  | .hbm, ⟨3, _⟩ => ⟨S78, .i32⟩
  | .hbm, ⟨4, _⟩ => ⟨S32x3x448x448, .f32⟩
  | .hbm, ⟨5, _⟩ => ⟨S3x32x448x448, .f32⟩
  | .hbm, ⟨6, _⟩ => ⟨S3x16x2x28x16x28x16, .f32⟩
  | .hbm, ⟨7, _⟩ => ⟨S16x28x28x3x2x16x16, .f32⟩
  | .hbm, ⟨8, _⟩ => ⟨S12544x1536, .f32⟩
  | .hbm, ⟨9, _⟩ => ⟨S1536x768, .f32⟩
  | .hbm, ⟨10, _⟩ => ⟨S12544x768, .f32⟩
  | .hbm, ⟨11, _⟩ => ⟨S1x768, .f32⟩
  | .hbm, ⟨12, _⟩ => ⟨S12544x768, .f32⟩
  | .hbm, ⟨13, _⟩ => ⟨S12544x768, .f32⟩
  | .hbm, ⟨14, _⟩ => ⟨S16x784x768, .f32⟩
  | .hbm, ⟨15, _⟩ => ⟨S_, .i32⟩
  | .hbm, ⟨16, _⟩ => ⟨S78, .i32⟩
  | .hbm, ⟨17, _⟩ => ⟨S78, .i1⟩
  | .hbm, ⟨18, _⟩ => ⟨S_, .i32⟩
  | .hbm, ⟨19, _⟩ => ⟨S78, .i32⟩
  | .hbm, ⟨20, _⟩ => ⟨S78, .i32⟩
  | .hbm, ⟨21, _⟩ => ⟨S78, .i32⟩
  | .hbm, ⟨22, _⟩ => ⟨S78x1, .i32⟩
  | .hbm, ⟨23, _⟩ => ⟨S16x78x768, .f32⟩
  | .hbm, ⟨24, _⟩ => ⟨S1248x768, .f32⟩
  | .hbm, ⟨25, _⟩ => ⟨S_, .i1⟩
  | .hbm, ⟨26, _⟩ => ⟨S784x16, .i1⟩
  | .hbm, ⟨27, _⟩ => ⟨S_, .i32⟩
  | .hbm, ⟨28, _⟩ => ⟨S78, .i32⟩
  | .hbm, ⟨29, _⟩ => ⟨S78, .i1⟩
  | .hbm, ⟨30, _⟩ => ⟨S_, .i32⟩
  | .hbm, ⟨31, _⟩ => ⟨S78, .i32⟩
  | .hbm, ⟨32, _⟩ => ⟨S78, .i32⟩
  | .hbm, ⟨33, _⟩ => ⟨S78, .i32⟩
  | .hbm, ⟨34, _⟩ => ⟨S78x1, .i32⟩
  | .hbm, ⟨35, _⟩ => ⟨S_, .i1⟩
  | .hbm, ⟨36, _⟩ => ⟨S78x16, .i1⟩
  | .hbm, ⟨37, _⟩ => ⟨S784x16, .i1⟩
  | _, _ => ⟨S1x32x3x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  shapeCasts_S1x32x3x448x448_S32x3x448x448 : S1x32x3x448x448.ShapeCasts S32x3x448x448
  transposes_S32x3x448x448_S3x32x448x448_1_0_2_3 : S32x3x448x448.Transposes [1, 0, 2, 3] S3x32x448x448
  shapeCasts_S3x32x448x448_S3x16x2x28x16x28x16 : S3x32x448x448.ShapeCasts S3x16x2x28x16x28x16
  transposes_S3x16x2x28x16x28x16_S16x28x28x3x2x16x16_1_3_5_0_2_4_6 : S3x16x2x28x16x28x16.Transposes [1, 3, 5, 0, 2, 4, 6] S16x28x28x3x2x16x16
  shapeCasts_S16x28x28x3x2x16x16_S12544x1536 : S16x28x28x3x2x16x16.ShapeCasts S12544x1536
  transposes_S768x1536_S1536x768_1_0 : S768x1536.Transposes [1, 0] S1536x768
  bcast_S768_S1x768_1 : S768.BroadcastsInDim S1x768 (![1] : Fin 1 → Fin S1x768.rank)
  bcast_S1x768_S12544x768_0_1 : S1x768.BroadcastsInDim S12544x768 (![0, 1] : Fin 2 → Fin S12544x768.rank)
  shapeCasts_S12544x768_S16x784x768 : S12544x768.ShapeCasts S16x784x768
  bcast_S_S78 : S_.BroadcastsInDim S78 (![] : Fin 0 → Fin S78.rank)
  bcast_S78_S78x1_0 : S78.BroadcastsInDim S78x1 (![0] : Fin 1 → Fin S78x1.rank)
  shapeCasts_S16x78x768_S1248x768 : S16x78x768.ShapeCasts S1248x768
  bcast_S_S784x16 : S_.BroadcastsInDim S784x16 (![] : Fin 0 → Fin S784x16.rank)
  bcast_S_S78x16 : S_.BroadcastsInDim S78x16 (![] : Fin 0 → Fin S78x16.rank)
  dot_S12544x1536_S1536x768_S12544x768_1_0_0_1_n_n_wf : DotDims.WF S12544x1536 S1536x768 S12544x768 [1] [0] [0] [1] [] []
  gather_S16x784x768_S78x1_S16x78x768_02_1_n_n_1_1_161768_wf : GatherDims.WF S16x784x768 S78x1 S16x78x768 [0, 2] [1] [] [1] [] 1 ![16, 1, 768]
  scatter_S784x16_S78x1_S78x16_1_0_0_1_wf : ScatterDims.WF S784x16 S78x1 S78x16 [1] [0] [0] 1

variable [Facts₀]

def dot_S12544x1536_S1536x768_S12544x768_1_0_0_1_n_n : DotDims S12544x1536 S1536x768 S12544x768 where
  lhsContracting := [1]
  rhsContracting := [0]
  lhsNonContracting := [0]
  rhsNonContracting := [1]
  lhsBatch := []
  rhsBatch := []
  wf := dot_S12544x1536_S1536x768_S12544x768_1_0_0_1_n_n_wf
def gather_S16x784x768_S78x1_S16x78x768_02_1_n_n_1_1_161768 : GatherDims S16x784x768 S78x1 S16x78x768 where
  offsetDims := [0, 2]
  collapsedSliceDims := [1]
  operandBatchingDims := []
  startIndicesBatchingDims := []
  startIndexMap := [1]
  indexVectorDim := 1
  sliceSizes := ![16, 1, 768]
  wf := gather_S16x784x768_S78x1_S16x78x768_02_1_n_n_1_1_161768_wf
def scatter_S784x16_S78x1_S78x16_1_0_0_1 : ScatterDims S784x16 S78x1 S78x16 where
  updateWindowDims := [1]
  insertedWindowDims := [0]
  scatterDimsToOperandDims := [0]
  indexVectorDim := 1
  wf := scatter_S784x16_S78x1_S78x16_1_0_0_1_wf

class Facts : Prop extends Facts₀ where

variable [Facts]
-- ==== Proof.Tokens.lean ====
/-
  The token array, as one function of three arrays.

  A video clip is cut into 12544 tubelets (16 temporal × 784 spatial patches), each flattened to a row of
  1536 numbers.  Row `r` of the patch matrix `A` is tubelet `r`; column `n` of the transposed weight
  matrix `Wt` is output channel `n`; `b` is the bias.  The token of tubelet `r` in channel `n` is

      tok r n = (∑ k < 1536, A[r, k] · Wt[k, n]) + b[n]

  on the extended reals.  Nothing here depends on how the rows are grouped into blocks or on the order in
  which the 1536 products are added: addition of extended reals is commutative and associative, so the sum
  over `Fin 1536` is the one value both programs compute.
-/
import Idealize.ShloMosaic.PureOps.Ideal
import Idealize.ShloMosaic.Lib.ValueIdx

noncomputable section

namespace Cert.Embed

open Idealize.ShloMosaic Idealize.ShloMosaic.ValueIdx

/-- One token entry: the inner product of tubelet `r`'s 1536 features with channel `n`'s weights, plus the
    channel's bias. -/
def tok (A : (⟨2, ![12544, 1536]⟩ : Shape).Idx → EReal) (Wt : (⟨2, ![1536, 768]⟩ : Shape).Idx → EReal)
    (b : (⟨1, ![768]⟩ : Shape).Idx → EReal) (r : Fin 12544) (n : Fin 768) : EReal :=
  (∑ k : Fin 1536, A (ix2 r k) * Wt (ix2 k n)) + b (ix1 n)

/-- The whole [12544, 768] token array. -/
def tokens (A : (⟨2, ![12544, 1536]⟩ : Shape).Idx → EReal) (Wt : (⟨2, ![1536, 768]⟩ : Shape).Idx → EReal)
    (b : (⟨1, ![768]⟩ : Shape).Idx → EReal) : (⟨2, ![12544, 768]⟩ : Shape).Idx → EReal :=
  fun j => tok A Wt b (j 0) (j 1)

/-- The array read at row `r`, channel `n`. -/
theorem tokens_ix2 (A : (⟨2, ![12544, 1536]⟩ : Shape).Idx → EReal) (Wt : (⟨2, ![1536, 768]⟩ : Shape).Idx → EReal)
    (b : (⟨1, ![768]⟩ : Shape).Idx → EReal) (r : Fin 12544) (n : Fin 768) :
    tokens A Wt b (ix2 r n) = tok A Wt b r n := rfl

end Cert.Embed

end
-- ==== Proof.KernelHost.lean ====
/-
  The kernel program's host side, named.

  Before the launch the program builds three arrays: the PATCH MATRIX (the clip regrouped so that row `r`
  holds tubelet `r`'s 3·2·16·16 = 1536 numbers; its last step, a change of float format, is the identity on the
  extended reals), the TRANSPOSED WEIGHTS, and the bias as a 1 × 768 row.  After the launch it views the
  12544 × 768 token array as (16 temporal, 784 spatial, 768), keeps the spatial patches the index vector names
  (a negative index `i` meaning `i + 784`) at every temporal step, and flattens; and it builds the 784 × 16
  mask that is true on the kept spatial rows.  The two results are functions of the token array and the
  index vector alone (`visible`, `keepMask`): nothing below looks inside the gather or the scatter.
-/
import proofs.«149813_j64811056497333_1_alg».proof.Proof.Gen.KernelIdeal.Frame
import Idealize.ShloMosaic.Lib.StableHlo.Run
import Idealize.ShloMosaic.PureOps.Ideal

noncomputable section

namespace Cert.KernelIdeal.Embed

open Idealize.ShloMosaic Idealize.ShloMosaic.TcCoe Idealize.SL.Sem Idealize.ShloMosaic.StableHlo
open Cert.KernelIdeal Cert.KernelIdeal.Gen

/-! ## The arrays the launch is given -/

/-- The patch matrix: the clip with its unit axis dropped, channels brought in front of frames, each of the
    three axes frames / height / width split into (patch, offset), the patch coordinates moved in front of
    the channel and the offsets, and the two groups flattened — row `(t, h, w)`, column `(c, dt, dh, dw)`. -/
def patchRows (clip : (⟨S1x32x3x448x448, .f32⟩ : BufTy).Contents (Elt Ideal)) : (⟨S12544x1536, .bf16⟩ : BufTy).Contents (Elt Ideal) :=
  truncf (F := Ideal) .bf16 (shapeCast S12544x1536 (transpose S16x28x28x3x2x16x16 [1, 3, 5, 0, 2, 4, 6] (shapeCast S3x16x2x28x16x28x16 (transpose S3x32x448x448 [1, 0, 2, 3] (shapeCast S32x3x448x448 clip shapeCasts_S1x32x3x448x448_S32x3x448x448) transposes_S32x3x448x448_S3x32x448x448_1_0_2_3) shapeCasts_S3x32x448x448_S3x16x2x28x16x28x16) transposes_S3x16x2x28x16x28x16_S16x28x28x3x2x16x16_1_3_5_0_2_4_6) shapeCasts_S16x28x28x3x2x16x16_S12544x1536) bitsLt_bf16_f32

/-- The weights transposed to (feature, channel). -/
def weightT (W : (⟨S768x1536, .f32⟩ : BufTy).Contents (Elt Ideal)) : (⟨S1536x768, .bf16⟩ : BufTy).Contents (Elt Ideal) :=
  truncf (F := Ideal) .bf16 (transpose S1536x768 [1, 0] W transposes_S768x1536_S1536x768_1_0) bitsLt_bf16_f32

/-- The bias as one row. -/
def biasRow (b : (⟨S768, .f32⟩ : BufTy).Contents (Elt Ideal)) : (⟨S1x768, .f32⟩ : BufTy).Contents (Elt Ideal) :=
  shapeCast S1x768 b shapeCasts_S768_S1x768

variable (m : (ℓ : Loc nD τ sig) → Buf (Elt Ideal) ℓ)

/-- The launch's first operand is the patch matrix of the clip. -/
theorem entry_patches (c : Dev nD) : V m c main_v5 = patchRows (m ((c : Thread nD τ).loc main_arg0)) := by
  show StableHlo.after hostOps0 (fun b => m (c, b)) (Proc.devRef .tc main_v5) = _
  after_results
  rfl

/-- Its second operand is the transposed weights. -/
theorem entry_weights (c : Dev nD) : V m c main_v7 = weightT (m ((c : Thread nD τ).loc main_arg1)) := by
  show StableHlo.after hostOps0 (fun b => m (c, b)) (Proc.devRef .tc main_v7) = _
  after_results
  rfl

/-- Its third operand is the bias row. -/
theorem entry_bias (c : Dev nD) : V m c main_v8 = biasRow (m ((c : Thread nD τ).loc main_arg2)) := by
  show StableHlo.after hostOps0 (fun b => m (c, b)) (Proc.devRef .tc main_v8) = _
  after_results
  rfl

/-! ## The two results, from the token array and the index vector -/

/-- The index vector with negative entries wrapped by 784, as a column. -/
def keptColumn (idx : (⟨S78, .i32⟩ : BufTy).Contents (Elt Ideal)) : (⟨S78x1, .i32⟩ : BufTy).Contents (Elt Ideal) :=
  broadcastInDim S78x1 ![0] bcast_S78_S78x1_0 (select (cmpi .slt idx (broadcastInDim S78 ![] bcast_S_S78 (constantI S_ 32 0#32))) (addi idx (broadcastInDim S78 ![] bcast_S_S78 (constantI S_ 32 784#32))) idx)

/-- The visible tokens: the kept spatial patches at every temporal step, flattened to 1248 rows. -/
def visible (tok : (⟨S12544x768, .f32⟩ : BufTy).Contents (Elt Ideal)) (idx : (⟨S78, .i32⟩ : BufTy).Contents (Elt Ideal)) : (⟨S1248x768, .f32⟩ : BufTy).Contents (Elt Ideal) :=
  shapeCast S1248x768 (Host.gather gather_S16x784x768_S78x1_S16x78x768_02_1_n_n_1_1_161768 (shapeCast S16x784x768 tok shapeCasts_S12544x768_S16x784x768) (keptColumn idx)) shapeCasts_S16x78x768_S1248x768

/-- The mask: false everywhere, then true written on the kept spatial rows. -/
def keepMask (idx : (⟨S78, .i32⟩ : BufTy).Contents (Elt Ideal)) : (⟨S784x16, .i1⟩ : BufTy).Contents (Elt Ideal) :=
  Host.scatter scatter_S784x16_S78x1_S78x16_1_0_0_1 (fun _ b => b) (broadcastInDim S784x16 ![] bcast_S_S784x16 (constantI S_ 1 0#1)) (keptColumn idx) (broadcastInDim S78x16 ![] bcast_S_S78x16 (constantI S_ 1 1#1))

/-- After the launch the lines that follow find the launch's output array at what the grid left in it, -/
theorem tail_sees_tokens (c : Dev nD) :
    Pipeline.withArrays (cfgs 0).spec c (V0 m c) (fun w => (dats m 0 c).arrAt w (cfgs 0).N) (Proc.devRef .tc main_v9)
      = (dats m 0 c).arrAt 3 cfg0.N :=
  Pipeline.withArrays_arr spec0 launch0.win.arr_inj c (V0 m c) (fun w => (dats m 0 c).arrAt w cfg0.N) 3

/-- and the index vector as launched. -/
theorem tail_sees_indices (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne spec0 c (V0 m c) (fun w => (dats m 0 c).arrAt w cfg0.N) main_arg3 (by decide)).trans (V_main_arg3 m c)

/-- The first result is the visible tokens of the launch's output. -/
theorem result_visible (c : Dev nD) :
    Pipeline.afterTail₀ cfgs (dats m) 0 (V0 m) [hostOps1] c main_v18
      = visible ((dats m 0 c).arrAt 3 cfg0.N) (m ((c : Thread nD τ).loc main_arg3)) := by
  unfold Pipeline.afterTail₀
  show StableHlo.after hostOps1 _ (Proc.devRef .tc main_v18) = _
  after_results
  rw [tail_sees_tokens m c, tail_sees_indices m c]
  rfl

/-- The second result is the mask of the index vector. -/
theorem result_mask (c : Dev nD) :
    Pipeline.afterTail₀ cfgs (dats m) 0 (V0 m) [hostOps1] c main_v27 = keepMask (m ((c : Thread nD τ).loc main_arg3)) := by
  unfold Pipeline.afterTail₀
  show StableHlo.after hostOps1 _ (Proc.devRef .tc main_v27) = _
  after_results
  rw [tail_sees_indices m c]
  rfl

end Cert.KernelIdeal.Embed

end
-- ==== Proof.KernelPayload.lean ====
/-
  What the kernel body stores, entry by entry.

  At one grid point the body holds a block `x0` of 1792 tubelet rows (1792 × 1536), the whole transposed
  weight matrix `x1` (1536 × 768) and the bias as a single row `x2` (1 × 768).  It stores

      matmul x0 x1 (into a zero accumulator)  +  (x2 broadcast down the 1792 rows).

  Read at row `p`, channel `q` on the extended reals this is  (∑ k < 1536, x0[p, k] · x1[k, q]) + x2[0, q]:
  the zero accumulator contributes `0 + _`, the contraction over the dot's one contracted axis is re-indexed
  by that axis's coordinate `k : Fin 1536`, and a row broadcast reads the row's entry in column `q`.
-/
import proofs.«149813_j64811056497333_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Embed

open Idealize.ShloMosaic Idealize.ShloMosaic.ValueIdx
open Cert.KernelIdeal Cert.KernelIdeal.Gen

/-! ## The operand indices of the block product

For output entry `i = (row, channel)` and contraction index `q`, the left operand is read at
`(row, q)` and the right at `(q, channel)`: the four coordinates, one lemma each. -/

theorem lhs_row (i : S1792x768.Idx) (q : dot_S1792x1536_S1536x768_S1792x768_1_0_0_1_n_n.contr.Idx) :
    (dot_S1792x1536_S1536x768_S1792x768_1_0_0_1_n_n.lhsIdx i q 0).val = (i 0).val := by
  unfold DotDims.lhsIdx
  rw [dif_neg (show ¬(0 : Fin S1792x1536.rank) ∈ dot_S1792x1536_S1536x768_S1792x768_1_0_0_1_n_n.lhsBatch by decide), dif_pos (show (0 : Fin S1792x1536.rank) ∈ dot_S1792x1536_S1536x768_S1792x768_1_0_0_1_n_n.lhsNonContracting by decide)]
  rfl
theorem lhs_feature (i : S1792x768.Idx) (q : dot_S1792x1536_S1536x768_S1792x768_1_0_0_1_n_n.contr.Idx) :
    (dot_S1792x1536_S1536x768_S1792x768_1_0_0_1_n_n.lhsIdx i q 1).val = (q ⟨0, by decide⟩).val :=
  dot_S1792x1536_S1536x768_S1792x768_1_0_0_1_n_n.lhsIdx_val_of_single rfl i q
theorem rhs_feature (i : S1792x768.Idx) (q : dot_S1792x1536_S1536x768_S1792x768_1_0_0_1_n_n.contr.Idx) :
    (dot_S1792x1536_S1536x768_S1792x768_1_0_0_1_n_n.rhsIdx i q 0).val = (q ⟨0, by decide⟩).val :=
  dot_S1792x1536_S1536x768_S1792x768_1_0_0_1_n_n.rhsIdx_val_of_single rfl i q
theorem rhs_channel (i : S1792x768.Idx) (q : dot_S1792x1536_S1536x768_S1792x768_1_0_0_1_n_n.contr.Idx) :
    (dot_S1792x1536_S1536x768_S1792x768_1_0_0_1_n_n.rhsIdx i q 1).val = (i 1).val := by
  unfold DotDims.rhsIdx
  rw [dif_neg (show ¬(1 : Fin S1536x768.rank) ∈ dot_S1792x1536_S1536x768_S1792x768_1_0_0_1_n_n.rhsBatch by decide), dif_pos (show (1 : Fin S1536x768.rank) ∈ dot_S1792x1536_S1536x768_S1792x768_1_0_0_1_n_n.rhsNonContracting by decide)]
  rfl

/-- The block product into the zero accumulator, at row `p` and channel `q`: the sum over the 1536 features of
    the row's feature times the channel's weight. -/
theorem matmul_block (x0 : FVec Ideal S1792x1536 .bf16) (x1 : FVec Ideal S1536x768 .bf16) (p : Fin 1792) (q : Fin 768) :
    matmul dot_S1792x1536_S1536x768_S1792x768_1_0_0_1_n_n none x0 x1 (constant (F := Ideal) S1792x768 .f32 0x00000000#32) (ix2 p q)
      = ∑ k : Fin 1536, x0 (ix2 p k) * x1 (ix2 k q) := by
  refine (Ideal.matmul_constant_zero_apply dot_S1792x1536_S1536x768_S1792x768_1_0_0_1_n_n none x0 x1 (ix2 p q)).trans ?_
  rw [← Equiv.sum_comp (contrEquiv1 dot_S1792x1536_S1536x768_S1792x768_1_0_0_1_n_n 1536 rfl rfl).symm]
  refine Finset.sum_congr rfl fun k _ => ?_
  have hk := contrEquiv1_symm_val dot_S1792x1536_S1536x768_S1792x768_1_0_0_1_n_n 1536 rfl rfl k
  have el : dot_S1792x1536_S1536x768_S1792x768_1_0_0_1_n_n.lhsIdx (ix2 p q) ((contrEquiv1 dot_S1792x1536_S1536x768_S1792x768_1_0_0_1_n_n 1536 rfl rfl).symm k) = ix2 p k := funext fun a => Fin.ext (by
    match a with
    | ⟨0, _⟩ => exact lhs_row _ _
    | ⟨1, _⟩ => exact (lhs_feature _ _).trans hk)
  have er : dot_S1792x1536_S1536x768_S1792x768_1_0_0_1_n_n.rhsIdx (ix2 p q) ((contrEquiv1 dot_S1792x1536_S1536x768_S1792x768_1_0_0_1_n_n 1536 rfl rfl).symm k) = ix2 k q := funext fun a => Fin.ext (by
    match a with
    | ⟨0, _⟩ => exact (rhs_feature _ _).trans hk
    | ⟨1, _⟩ => exact rhs_channel _ _)
  rw [el, er]

/-- THE STORED VALUE at row `p`, channel `q` of the block: the inner product plus the bias row's entry.  The three
    shape casts in the body are between equal shapes, hence the identity. -/
theorem payload_apply (x0 : FVec Ideal S1792x1536 .bf16) (x1 : FVec Ideal S1536x768 .bf16) (x2 : FVec Ideal S1x768 .f32) (p : Fin 1792) (q : Fin 768) :
    k0_pay1 (F := Ideal) x0 x1 x2 (ix2 p q) = (∑ k : Fin 1536, x0 (ix2 p k) * x1 (ix2 k q)) + x2 (ix2 (0 : Fin 1) q) := by
  unfold k0_pay1
  show matmul dot_S1792x1536_S1536x768_S1792x768_1_0_0_1_n_n none (shapeCast S1792x1536 x0 _) (shapeCast S1536x768 x1 _) (constant (F := Ideal) S1792x768 .f32 0x00000000#32) (ix2 p q)
      + broadcastTo S1792x768 (shapeCast S1x768 x2 _) _ (ix2 p q) = _
  rw [shapeCast_self, shapeCast_self, shapeCast_self]
  exact congrArg₂ (· + ·) (matmul_block x0 x1 p q) (broadcastTo_1b_ab_apply x2 _ p q)

end Cert.KernelIdeal.Embed

end
-- ==== Proof.KernelBlocks.lean ====
/-
  From the seven blocks to the whole token array.

  The grid has seven points.  Point `t` is given rows `1792·t … 1792·t + 1791` of the patch matrix, all of the
  transposed weights and the bias row, and writes back rows `1792·t …` of the output.  So the entry it writes
  at block position `(p, q)` is array entry `(1792·t + p, q)`, and by the stored value's formula that entry
  is `tok (1792·t + p) q` of the launch's three operands: each point writes a block of ONE function of the
  whole arrays.  Every row `r < 12544 = 7 · 1792` lies in the block of point `r / 1792`, so the blocks cover
  the array and it ends holding that function everywhere.
-/
import proofs.«149813_j64811056497333_1_alg».proof.Proof.Gen.KernelIdeal.Frame
import proofs.«149813_j64811056497333_1_alg».proof.Proof.Tokens
import proofs.«149813_j64811056497333_1_alg».proof.Proof.KernelPayload
import proofs.«149813_j64811056497333_1_alg».proof.Proof.KernelHost
import Idealize.ShloMosaic.Lib.ValueIdx
import Idealize.ShloMosaic.Lib.ValueLayout
import Idealize.ShloMosaic.Lib.Pipeline.Value

noncomputable section

namespace Cert.KernelIdeal.Embed

open Idealize.ShloMosaic Idealize.ShloMosaic.TcCoe Idealize.ShloMosaic.ValueIdx Idealize.SL.Sem
open Cert.KernelIdeal Cert.KernelIdeal.Gen Cert.Embed

variable (m : (ℓ : Loc nD τ sig) → Buf (Elt Ideal) ℓ)

theorem offsets_zero : (![0, 0] : Fin 2 → Nat) = fun _ => 0 := funext fun a => by fin_cases a <;> rfl

/-- Where each window's block sits at point `t`: the patch rows and the output rows at block `t` of their first
    axis, everything else at block 0.  Decided over the seven points. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 7 := Nat.lt_of_lt_of_eq t.isLt N_0

/-! ## Each window's block, read where the array says -/

/-- Row `p` of point `t`'s patch block is row `r = 1792·t + p` of the patch matrix. -/
theorem read_patch_block (c : Dev nD) (t : Fin cfg0.N) (p : Fin 1792) (k : Fin 1536) (r : Fin 12544)
    (hr : r.val = t.val * 1792 + p.val) : iblk m c 0 t (ix2 p k) = V m c main_v5 (ix2 r k) := by
  show V m c main_v5 (((cfg0.win 0).blk t).view.emb (ix2 p k)) = V m c main_v5 (ix2 r k)
  refine congrArg (V m c main_v5) ?_
  obtain ⟨e0, e1, -⟩ := block_positions t
  funext a; apply Fin.ext
  match a with
  | ⟨0, _⟩ => show win0_0.index t (0 : Fin 2) * 1792 + 1 * p.val = r.val; omega
  | ⟨1, _⟩ => show win0_0.index t (1 : Fin 2) * 1536 + 1 * k.val = k.val; omega

/-- Every point's weight block is the whole transposed weight matrix. -/
theorem read_weight_block (c : Dev nD) (t : Fin cfg0.N) (k : Fin 1536) (q : Fin 768) :
    iblk m c 1 t (ix2 k q) = V m c main_v7 (ix2 k q) := by
  show V m c main_v7 (((cfg0.win 1).blk t).view.emb (ix2 k q)) = V m c main_v7 (ix2 k q)
  refine congrArg (V m c main_v7) ?_
  obtain ⟨-, -, e2, e3, -⟩ := block_positions t
  funext a; apply Fin.ext
  match a with
  | ⟨0, _⟩ => show win0_1.index t (0 : Fin 2) * 1536 + 1 * k.val = k.val; omega
  | ⟨1, _⟩ => show win0_1.index t (1 : Fin 2) * 768 + 1 * q.val = q.val; omega

/-- Every point's bias block is the whole bias row. -/
theorem read_bias_block (c : Dev nD) (t : Fin cfg0.N) (q : Fin 768) :
    iblk m c 2 t (ix2 (0 : Fin 1) q) = V m c main_v8 (ix2 (0 : Fin 1) q) := by
  show V m c main_v8 (((cfg0.win 2).blk t).view.emb (ix2 (0 : Fin 1) q)) = V m c main_v8 (ix2 (0 : Fin 1) q)
  refine congrArg (V m c main_v8) ?_
  obtain ⟨-, -, -, -, e4, e5, -⟩ := block_positions t
  funext a; apply Fin.ext
  match a with
  | ⟨0, _⟩ => show win0_2.index t (0 : Fin 2) * 1 + 1 * 0 = 0; omega
  | ⟨1, _⟩ => show win0_2.index t (1 : Fin 2) * 768 + 1 * q.val = q.val; omega

/-- Position `(p, q)` of point `t`'s output block is array entry `(1792·t + p, q)`. -/
theorem out_block_entry (t : Fin cfg0.N) (p : Fin 1792) (q : Fin 768) (r : Fin 12544)
    (hr : r.val = t.val * 1792 + p.val) : ((cfg0.win 3).blk t).view.emb (ix2 p q) = ix2 r q := by
  obtain ⟨-, -, -, -, -, -, e6, e7⟩ := block_positions t
  funext a; apply Fin.ext
  match a with
  | ⟨0, _⟩ => show win0_3.index t (0 : Fin 2) * 1792 + 1 * p.val = r.val; omega
  | ⟨1, _⟩ => show win0_3.index t (1 : Fin 2) * 768 + 1 * q.val = q.val; omega

/-! ## What a point writes back -/

/-- The token array of the launch's operands as the launch finds them. -/
abbrev launched (c : Dev nD) : S12544x768.Idx → EReal :=
  tokens (V m c main_v5) (V m c main_v7) (m ((c : Thread nD τ).loc main_arg2))

/-- WHAT POINT `t` WRITES BACK is block `t` of the token array. -/
theorem flushed_eq (c : Dev nD) (t : Fin cfg0.N) :
    (dats m 0 c).flushed 3 t = ((cfg0.win 3).blk t).view.read (Elt Ideal) (launched m c) := by
  show (cfg0.win 3).cut (grid0.coords t) ((dats m 0 c).after 3 t) = _
  rw [after0_3]
  unfold out0_3
  rw [View.canon_unit_zero offsets_zero]
  simp only [View.ld_unit_zero (S := S1792x1536) offsets_zero, View.ld_unit_zero (S := S1536x768) offsets_zero,
    View.ld_unit_zero (S := S1x768) offsets_zero]
  funext y
  obtain ⟨p, q, rfl⟩ : ∃ (p : Fin 1792) (q : Fin 768), y = ix2 p q := ⟨y 0, y 1, eq_ix2 y⟩
  have h7 := point_lt t
  obtain ⟨r, hr⟩ : ∃ r : Fin 12544, r.val = t.val * 1792 + p.val := ⟨⟨t.val * 1792 + p.val, by have := p.isLt; omega⟩, rfl⟩
  show k0_pay1 (F := Ideal) (iblk m c 0 t) (iblk m c 1 t) (iblk m c 2 t) (ix2 p q)
      = launched m c (((cfg0.win 3).blk t).view.emb (ix2 p q))
  rw [out_block_entry t p q r hr]
  refine (payload_apply _ _ _ p q).trans ?_
  show _ = tok (V m c main_v5) (V m c main_v7) (m ((c : Thread nD τ).loc main_arg2)) r q
  unfold tok
  refine congrArg₂ (· + ·) (Finset.sum_congr rfl fun k _ => congrArg₂ (· * ·) (read_patch_block m c t p k r hr) (read_weight_block m c t k q)) ?_
  rw [read_bias_block m c t q, entry_bias m c]
  exact shapeCast_a_1a_apply _ _ (0 : Fin 1) q

/-! ## The blocks cover the array -/

/-- An entry is in point `t`'s block iff each coordinate is in the block's range on its axis. -/
theorem mem_out_block (t : Fin cfg0.N) (i : S12544x768.Idx) :
    i ∈ ((cfg0.win 3).blk t).view.set ↔ ∀ a : Fin 2, win0_3.index t a * S1792x768.size a ≤ (i a).val ∧ (i a).val < win0_3.index t a * S1792x768.size a + S1792x768.size a := by
  show i ∈ ((View.whole main_v9).slice (win0_3.rect t)).set ↔ _
  rw [View.set_slice_whole, Rect.mem_set_unit]
  exact Iff.rfl

/-- Row `r` is in the block of point `r / 1792`, and every point writes its block back. -/
theorem covered (i : S12544x768.Idx) :
    ∃ t : Fin cfg0.N, (cfg0.win 3).flush t = true ∧ i ∈ ((cfg0.win 3).blk t).view.set := by
  have hi0 : (i 0).val < 12544 := idx2_lt0 i
  have hi1 : (i 1).val < 768 := idx2_lt1 i
  obtain ⟨t, ht⟩ : ∃ t : Fin cfg0.N, t.val = (i 0).val / 1792 :=
    ⟨⟨(i 0).val / 1792, by rw [show cfg0.N = 7 from N_0]; omega⟩, rfl⟩
  obtain ⟨-, -, -, -, -, -, e6, e7⟩ := block_positions t
  refine ⟨t, flush0_3 t, ?_⟩
  rw [mem_out_block]
  intro a
  match a with
  | ⟨0, _⟩ => show win0_3.index t (0 : Fin 2) * 1792 ≤ (i 0).val ∧ (i 0).val < win0_3.index t (0 : Fin 2) * 1792 + 1792; omega
  | ⟨1, _⟩ => show win0_3.index t (1 : Fin 2) * 768 ≤ (i 1).val ∧ (i 1).val < win0_3.index t (1 : Fin 2) * 768 + 768; omega

/-- THE OUTPUT ARRAY after the grid: the token array of the patch matrix, the transposed weights and the bias. -/
theorem final (c : Dev nD) :
    (dats m 0 c).arrAt 3 cfg0.N
      = tokens (patchRows (m ((c : Thread nD τ).loc main_arg0))) (weightT (m ((c : Thread nD τ).loc main_arg1)))
          (m ((c : Thread nD τ).loc main_arg2)) := by
  rw [← entry_patches m c, ← entry_weights m c]
  exact (dats m 0 c).arrAt_eq_of_cover 3 (launched m c) (fun t _ => flushed_eq m c t) covered

end Cert.KernelIdeal.Embed

end
-- ==== Proof.KernelRun.lean ====
/-
  The kernel program's run, with both results named.

  Every weakly fair execution ends; the first result holds the visible tokens of the token array of (patch
  matrix, transposed weights, bias), the second the mask of the index vector, and the four arguments are as
  launched.  The token array comes from the grid's seven write-backs, the two results from the lines after
  the launch, which see that array and the untouched index vector.
-/
import proofs.«149813_j64811056497333_1_alg».proof.Proof.Gen.KernelIdeal.Frame
import proofs.«149813_j64811056497333_1_alg».proof.Proof.Tokens
import proofs.«149813_j64811056497333_1_alg».proof.Proof.KernelHost
import proofs.«149813_j64811056497333_1_alg».proof.Proof.KernelBlocks

noncomputable section

namespace Cert.KernelIdeal.Embed

open Idealize.ShloMosaic Idealize.ShloMosaic.TcCoe Idealize.SL.Sem
open Cert.KernelIdeal Cert.KernelIdeal.Gen Cert.Embed

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v18)
          = visible (tokens (patchRows (m ((c.tc : Thread nD τ).loc main_arg0))) (weightT (m ((c.tc : Thread nD τ).loc main_arg1)))
              (m ((c.tc : Thread nD τ).loc main_arg2))) (m ((c.tc : Thread nD τ).loc main_arg3))
      ∧ r.2.mem ((c.tc : Thread nD τ).loc main_v27) = keepMask (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v18 (Pipeline.mem_restRefs_of main_v18 (by decide) (by decide))).trans
        ((result_visible m c).trans (congrArg (fun T => visible T (m ((c.tc : Thread nD τ).loc main_arg3))) (final m c))),
      ((h c).2 main_v27 (Pipeline.mem_restRefs_of main_v27 (by decide) (by decide))).trans (result_mask m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Embed

end
-- ==== Proof.RefTokens.lean ====
/-
  The reference's token array is the same function.

  The reference multiplies the whole 12544 × 1536 patch matrix by the 1536 × 768 transposed weights in one
  `dot_general` and adds the bias broadcast first to a row and then down the rows.  Read at row `r`, channel
  `n`: the product is the sum over the 1536 features of `A[r, k] · Wt[k, n]`, and the doubly broadcast bias
  reads `b[n]`.  That is `tok r n`.
-/
import proofs.«149813_j64811056497333_1_alg».proof.Proof.Gen.ReferenceIdeal.Read
import proofs.«149813_j64811056497333_1_alg».proof.Proof.Tokens
import Idealize.ShloMosaic.Lib.ValueIdx

noncomputable section

namespace Cert.ReferenceIdeal.Embed

open Idealize.ShloMosaic Idealize.ShloMosaic.ValueIdx
open Cert.ReferenceIdeal Cert.ReferenceIdeal.Read Cert.Embed

/-- The reference's biased product, as an array, is the token array of its patch matrix, its transposed weights
    and the bias. -/
theorem stage_tokens (x0 : (⟨S1x32x3x448x448, .f32⟩ : BufTy).Contents (Elt Ideal)) (x1 : (⟨S768x1536, .f32⟩ : BufTy).Contents (Elt Ideal))
    (x2 : (⟨S768, .f32⟩ : BufTy).Contents (Elt Ideal)) :
    val_main_v9 (F := Ideal) x0 x1 x2 = tokens (val_main_v4 (F := Ideal) x0) (val_main_v5 (F := Ideal) x1) x2 := by
  funext j
  obtain ⟨r, n, rfl⟩ : ∃ (r : Fin 12544) (n : Fin 768), j = ix2 r n := ⟨j 0, j 1, eq_ix2 j⟩
  have el : ∀ k : Fin 1536, lidx_main_v6 (ix2 r n) k = ix2 r k := fun k => funext fun a => Fin.ext (by
    match a with
    | ⟨0, _⟩ => rfl
    | ⟨1, _⟩ => rfl)
  have er : ∀ k : Fin 1536, ridx_main_v6 (ix2 r n) k = ix2 k n := fun k => funext fun a => Fin.ext (by
    match a with
    | ⟨0, _⟩ => rfl
    | ⟨1, _⟩ => rfl)
  have eb : idx_main_v7 (idx_main_v8 (ix2 r n)) = ix1 n := funext fun a => Fin.ext (by
    match a with
    | ⟨0, _⟩ => rfl)
  rw [val_main_v9_apply, val_main_v6_apply, val_main_v8_apply, val_main_v7_apply]
  simp only [el, er, eb]
  rfl

end Cert.ReferenceIdeal.Embed

end
-- ==== Proof.lean ====
/-
  Tubelet embedding with a kept-patch gather: the kernel program and the reference agree on the extended reals.

  Both programs cut a 32-frame 3 × 448 × 448 clip into 12544 tubelets of 1536 numbers (the patch matrix `A`),
  form the tokens `A · Wᵀ + b`, keep the spatial patches an index vector names at each of the 16 temporal steps,
  and build the mask of kept rows.  They differ in one place only: the reference forms the 12544 × 768 product
  in one step, the kernel program in seven blocks of 1792 rows, each block a product into a zero accumulator
  plus the bias row broadcast, on operands first rounded to bf16.  On the extended reals the rounding is the
  identity and each entry of either product is the same sum `∑ k < 1536, A[r, k] · Wᵀ[k, n]` plus `b[n]`
  (`Cert.Embed.tok`): nothing but commutativity and associativity of + and `0 + x = x` is used, so the inputs'
  finiteness is never opened.  What follows the product is the same text in both programs and is carried as one
  function of the token array and the index vector (`visible`, `keepMask`).

  Proof/Tokens.lean states the token array; Proof/KernelPayload.lean reads the kernel body's stored value at an
  entry; Proof/KernelHost.lean names the host operations around the launch; Proof/KernelBlocks.lean passes from
  the seven written blocks to the whole array; Proof/KernelRun.lean states the kernel program's run;
  Proof/RefTokens.lean reads the reference's product at an entry.
-/
import proofs.«149813_j64811056497333_1_alg».proof.Defs
import proofs.«149813_j64811056497333_1_alg».proof.Proof.Gen.Kernel
import proofs.«149813_j64811056497333_1_alg».proof.Proof.Gen.Kernel.Skeleton
import proofs.«149813_j64811056497333_1_alg».proof.Proof.Gen.Kernel.Launch
import proofs.«149813_j64811056497333_1_alg».proof.Proof.Gen.Kernel.Points
import proofs.«149813_j64811056497333_1_alg».proof.Proof.Gen.Kernel.Frame
import proofs.«149813_j64811056497333_1_alg».proof.Proof.Gen.KernelIdeal
import proofs.«149813_j64811056497333_1_alg».proof.Proof.Gen.KernelIdeal.Skeleton
import proofs.«149813_j64811056497333_1_alg».proof.Proof.Gen.KernelIdeal.Launch
import proofs.«149813_j64811056497333_1_alg».proof.Proof.Gen.KernelIdeal.Points
import proofs.«149813_j64811056497333_1_alg».proof.Proof.Gen.KernelIdeal.Frame
import proofs.«149813_j64811056497333_1_alg».proof.Proof.Gen.ReferenceIdeal
import proofs.«149813_j64811056497333_1_alg».proof.Proof.Gen.Pre_finite_inputs
import proofs.«149813_j64811056497333_1_alg».proof.Proof.Gen.ReferenceIdeal.Run
import proofs.«149813_j64811056497333_1_alg».proof.Proof.Gen.ReferenceIdeal.Read
import proofs.«149813_j64811056497333_1_alg».proof.Proof.Tokens
import proofs.«149813_j64811056497333_1_alg».proof.Proof.KernelRun
import proofs.«149813_j64811056497333_1_alg».proof.Proof.RefTokens
import Idealize.ShloMosaic.Adequacy
import Idealize.ShloMosaic.Init

noncomputable section

namespace Cert.Proof

open Idealize.ShloMosaic Idealize.SL.Sem

/-! ## The two programs' host operations are the same functions

The shapes, the layout permutations and the gather / scatter dimension numbers are printed once per program;
they are the same data, so each of the reference's stages IS the kernel program's function of that name — for
the patch matrix and the weights up to the kernel program's change of float format, the identity here. -/

theorem patches_eq (x0 : (⟨Cert.ReferenceIdeal.S1x32x3x448x448, .f32⟩ : BufTy).Contents (Elt Ideal)) :
    Cert.ReferenceIdeal.Read.val_main_v4 (F := Ideal) x0 = Cert.KernelIdeal.Embed.patchRows x0 := rfl

theorem weights_eq (x1 : (⟨Cert.ReferenceIdeal.S768x1536, .f32⟩ : BufTy).Contents (Elt Ideal)) :
    Cert.ReferenceIdeal.Read.val_main_v5 (F := Ideal) x1 = Cert.KernelIdeal.Embed.weightT x1 := rfl

theorem visible_eq (x0 : (⟨Cert.ReferenceIdeal.S1x32x3x448x448, .f32⟩ : BufTy).Contents (Elt Ideal))
    (x1 : (⟨Cert.ReferenceIdeal.S768x1536, .f32⟩ : BufTy).Contents (Elt Ideal))
    (x2 : (⟨Cert.ReferenceIdeal.S768, .f32⟩ : BufTy).Contents (Elt Ideal))
    (x3 : (⟨Cert.ReferenceIdeal.S78, .i32⟩ : BufTy).Contents (Elt Ideal)) :
    Cert.ReferenceIdeal.Read.val_main_v18 (F := Ideal) x0 x1 x2 x3
      = Cert.KernelIdeal.Embed.visible (Cert.ReferenceIdeal.Read.val_main_v9 (F := Ideal) x0 x1 x2) x3 := rfl

theorem mask_eq (x3 : (⟨Cert.ReferenceIdeal.S78, .i32⟩ : BufTy).Contents (Elt Ideal)) :
    Cert.ReferenceIdeal.Read.val_main_v27 (F := Ideal) x3 = Cert.KernelIdeal.Embed.keepMask x3 := rfl

/-- The reference's first result is the visible tokens of the token array of (patch matrix, transposed weights,
    bias): its product-plus-bias stage is that array (`stage_tokens`), and the rest is the shared function. -/
theorem reference_visible (x0 : (⟨Cert.ReferenceIdeal.S1x32x3x448x448, .f32⟩ : BufTy).Contents (Elt Ideal))
    (x1 : (⟨Cert.ReferenceIdeal.S768x1536, .f32⟩ : BufTy).Contents (Elt Ideal))
    (x2 : (⟨Cert.ReferenceIdeal.S768, .f32⟩ : BufTy).Contents (Elt Ideal))
    (x3 : (⟨Cert.ReferenceIdeal.S78, .i32⟩ : BufTy).Contents (Elt Ideal)) :
    Cert.ReferenceIdeal.Read.val_main_v18 (F := Ideal) x0 x1 x2 x3
      = Cert.KernelIdeal.Embed.visible
          (Cert.Embed.tokens (Cert.KernelIdeal.Embed.patchRows x0) (Cert.KernelIdeal.Embed.weightT x1) x2) x3 := by
  rw [visible_eq, Cert.ReferenceIdeal.Embed.stage_tokens, patches_eq, weights_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- From memories that agree on the four arguments both programs run, the kernel program to the visible tokens
    and mask of its own arguments (its run), the reference to the same two functions of ITS arguments, which are
    the kernel program's. -/
theorem algebraic : Cert.algebraic_KernelIdeal_ReferenceIdeal := by
  intro m ρ m' ρ' _ hagree
  refine ⟨_, _, Cert.KernelIdeal.Embed.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v18_eq _ _ _ _).trans (reference_visible _ _ _ _)
  · rw [(hagree c).2.2.2]
    exact (Cert.ReferenceIdeal.Read.val_main_v27_eq _).trans (mask_eq _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
